-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x2048 : Shape := ⟨3, ![2, 8192, 2048]⟩
abbrev S2048x2048 : Shape := ⟨2, ![2048, 2048]⟩
abbrev S6144 : Shape := ⟨1, ![6144]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S6144 : S_.BroadcastsInDim S6144 (![] : Fin 0 → Fin S6144.rank)
  reducesTo_S6144_S_d0 : S6144.ReducesTo [0] S_

variable [Facts]

def fn_part1 {F : FTy → Type} [FloatOps F] (main_arg7 : FVec F S6144 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S6144 .f32 := Host.absf main_arg7
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  main_v23

def fn {F : FTy → Type} [FloatOps F] (main_arg0 : FVec F S2x8192x2048 .f32) (main_arg1 : FVec F S2048x2048 .f32) (main_arg2 : FVec F S2048x2048 .f32) (main_arg3 : FVec F S2048x2048 .f32) (main_arg4 : IVec S2048x2048 1) (main_arg5 : IVec S2048x2048 1) (main_arg6 : IVec S2048x2048 1) (main_arg7 : FVec F S6144 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg7 main_v13 main_v16
-- ==== Kernel.lean ====
abbrev S2x8192x2048 : Shape := ⟨3, ![2, 8192, 2048]⟩
abbrev S2048x2048 : Shape := ⟨2, ![2048, 2048]⟩
abbrev S6144 : Shape := ⟨1, ![6144]⟩
abbrev S16384x2048 : Shape := ⟨2, ![16384, 2048]⟩
abbrev S6144x2048 : Shape := ⟨2, ![6144, 2048]⟩
abbrev S16384x6144 : Shape := ⟨2, ![16384, 6144]⟩
abbrev S128x2048 : Shape := ⟨2, ![128, 2048]⟩
abbrev S128x6144 : Shape := ⟨2, ![128, 6144]⟩
abbrev S1x6144 : Shape := ⟨2, ![1, 6144]⟩
abbrev S2x8192x6144 : Shape := ⟨3, ![2, 8192, 6144]⟩

abbrev nBuf : Space → Nat
  | .hbm => 19
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .i1⟩
  | .hbm, ⟨5, _⟩ => ⟨S2048x2048, .i1⟩
  | .hbm, ⟨6, _⟩ => ⟨S2048x2048, .i1⟩
  | .hbm, ⟨7, _⟩ => ⟨S6144, .f32⟩
  | .hbm, ⟨8, _⟩ => ⟨S16384x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S6144x2048, .f32⟩
  | .hbm, ⟨16, _⟩ => ⟨S6144x2048, .bf16⟩
  | .hbm, ⟨17, _⟩ => ⟨S16384x6144, .f32⟩
  | .hbm, ⟨18, _⟩ => ⟨S2x8192x6144, .f32⟩
  | .local _ .vmem, ⟨0, _⟩ => ⟨S128x2048, .f32⟩
  | .local _ .vmem, ⟨1, _⟩ => ⟨S128x2048, .f32⟩
  | .local _ .vmem, ⟨2, _⟩ => ⟨S6144x2048, .bf16⟩
  | .local _ .vmem, ⟨3, _⟩ => ⟨S6144, .f32⟩
  | .local _ .vmem, ⟨4, _⟩ => ⟨S128x6144, .f32⟩
  | .local _ .vmem, ⟨5, _⟩ => ⟨S128x6144, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x8192x2048_S16384x2048 : S2x8192x2048.ShapeCasts S16384x2048
  concatenates_S2048x2048_S2048x2048_S2048x2048_S6144x2048_d0 : Shape.Concatenates [S2048x2048, S2048x2048, S2048x2048] S6144x2048 0
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S6144x2048_S6144x2048_0_0 : ∀ a, (![0, 0] : Fin 2 → Nat) a + S6144x2048.size a ≤ S6144x2048.size a
  h_S6144x2048 : 0 < S6144x2048.numel
  shapeCasts_S6144x2048_S6144x2048 : S6144x2048.ShapeCasts S6144x2048
  inb_S6144_S6144_0 : ∀ a, (![0] : Fin 1 → Nat) a + S6144.size a ≤ S6144.size a
  h_S6144 : 0 < S6144.numel
  shapeCasts_S6144_S1x6144 : S6144.ShapeCasts S1x6144
  broadcasts_S1x6144_S128x6144 : S1x6144.Broadcasts S128x6144
  inb_S128x6144_S128x6144_0_0 : ∀ a, (![0, 0] : Fin 2 → Nat) a + S128x6144.size a ≤ S128x6144.size a
  h_S128x6144 : 0 < S128x6144.numel
  shapeCasts_S16384x6144_S2x8192x6144 : S16384x6144.ShapeCasts S2x8192x6144
  dot_S128x2048_S6144x2048_S128x6144_1_1_0_0_n_n_wf : DotDims.WF S128x2048 S6144x2048 S128x6144 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6144x2048.size a ≤ S6144x2048.size a
  hwx0_1 : ∀ i : grid0.Coords, EltTy.bits .bf16 = 32 ∨ (Rect.block (s := S6144x2048) S6144x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6144.size a ≤ S6144.size a
  hwx0_2 : ∀ i : grid0.Coords, EltTy.bits .f32 = 32 ∨ (Rect.block (s := S6144) S6144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x6144.size a ≤ S16384x6144.size a
  hwx0_3 : ∀ i : grid0.Coords, EltTy.bits .f32 = 32 ∨ (Rect.block (s := S16384x6144) S128x6144.size (cc0_transform_3 i) (hinb0_3 i)).WholeWords (EltTy.packing .f32)

variable [Facts₀]

def dot_S128x2048_S6144x2048_S128x6144_1_1_0_0_n_n : DotDims S128x2048 S6144x2048 S128x6144 where
  lhsContracting := [1]
  rhsContracting := [1]
  lhsNonContracting := [0]
  rhsNonContracting := [0]
  lhsBatch := []
  rhsBatch := []
  wf := dot_S128x2048_S6144x2048_S128x6144_1_1_0_0_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S6144x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S6144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x6144.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8192x2048 : Shape := ⟨3, ![2, 8192, 2048]⟩
abbrev S2048x2048 : Shape := ⟨2, ![2048, 2048]⟩
abbrev S6144 : Shape := ⟨1, ![6144]⟩
abbrev S2x8192x6144 : Shape := ⟨3, ![2, 8192, 6144]⟩
abbrev S1x1x6144 : Shape := ⟨3, ![1, 1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .i1⟩
  | .hbm, ⟨5, _⟩ => ⟨S2048x2048, .i1⟩
  | .hbm, ⟨6, _⟩ => ⟨S2048x2048, .i1⟩
  | .hbm, ⟨7, _⟩ => ⟨S6144, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S2x8192x6144, .f32⟩
  | .hbm, ⟨18, _⟩ => ⟨S1x1x6144, .f32⟩
  | .hbm, ⟨19, _⟩ => ⟨S2x8192x6144, .f32⟩
  | .hbm, ⟨20, _⟩ => ⟨S2x8192x6144, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  concatenates_S2x8192x2048_S2x8192x2048_S2x8192x2048_S2x8192x6144_d2 : Shape.Concatenates [S2x8192x2048, S2x8192x2048, S2x8192x2048] S2x8192x6144 2
  bcast_S6144_S1x1x6144_2 : S6144.BroadcastsInDim S1x1x6144 (![2] : Fin 1 → Fin S1x1x6144.rank)
  bcast_S1x1x6144_S2x8192x6144_0_1_2 : S1x1x6144.BroadcastsInDim S2x8192x6144 (![0, 1, 2] : Fin 3 → Fin S2x8192x6144.rank)
  dot_S2x8192x2048_S2048x2048_S2x8192x2048_2_1_01_0_n_n_wf : DotDims.WF S2x8192x2048 S2048x2048 S2x8192x2048 [2] [1] [0, 1] [0] [] []

variable [Facts₀]

def dot_S2x8192x2048_S2048x2048_S2x8192x2048_2_1_01_0_n_n : DotDims S2x8192x2048 S2048x2048 S2x8192x2048 where
  lhsContracting := [2]
  rhsContracting := [1]
  lhsNonContracting := [0, 1]
  rhsNonContracting := [0]
  lhsBatch := []
  rhsBatch := []
  wf := dot_S2x8192x2048_S2048x2048_S2x8192x2048_2_1_01_0_n_n_wf

class Facts : Prop extends Facts₀ where

variable [Facts]
-- ==== Proof.Kernel.Around.lean ====
/-
  The program around its one launch. Before the launch the host reshapes the activations to a matrix of 16384 rows,
  turns each of the three masks into zeros and ones, multiplies each weight matrix by its mask entry by entry, stacks
  the three products row-wise into one matrix of 6144 rows and changes its format; after the launch it reshapes the
  16384 × 6144 result back to 2 × 8192 × 6144. None of these lines writes an argument array, none writes an array the
  launch stages, and the one line after the launch touches only the launch's result and its own.
-/
import proofs.«107753_j30571577213783_2_alg».proof.Proof.Gen.Kernel.Launch
import proofs.«107753_j30571577213783_2_alg».proof.Proof.Gen.Kernel.Skeleton
import proofs.«107753_j30571577213783_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the launch finds them -/

/-- Every buffer of core `c` after the nine host lines that precede the launch. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- The host lines allocate nothing. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- The program is: the lines before the launch, the launch, the line after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the launch touches only arrays of the launch and buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- And it writes its own result only, which is no array the launch stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-! ## The argument arrays are never written by a host line -/

/-- No line before the launch writes `main_arg0`. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg1`. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg2`. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg3`. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg4`. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg5`. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg6`. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg7`. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it: `main_arg0`, which the launch does not stage, ends as it began. -/
theorem final_main_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg0 (by exact (by decide : ∀ w, Pipeline.arrRef spec0 w ≠ main_arg0))]
  exact entry_main_arg0 m c

/-- Nor does the line after it: `main_arg1`, which the launch does not stage, ends as it began. -/
theorem final_main_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg1 (by exact (by decide : ∀ w, Pipeline.arrRef spec0 w ≠ main_arg1))]
  exact entry_main_arg1 m c

/-- Nor does the line after it: `main_arg2`, which the launch does not stage, ends as it began. -/
theorem final_main_arg2 (dats : (p : Fin _) → (c : Dev nD) → Dat τ (Elt F) Unit ℕ (UR sig nD τ) ℕ (cfgs p) c) (c : Dev nD) :
    Pipeline.afterTail₀ cfgs dats 0 (entry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg2 (by exact (by decide : ∀ w, Pipeline.arrRef spec0 w ≠ main_arg2))]
  exact entry_main_arg2 m c

/-- Nor does the line after it: `main_arg3`, which the launch does not stage, ends as it began. -/
theorem final_main_arg3 (dats : (p : Fin _) → (c : Dev nD) → Dat τ (Elt F) Unit ℕ (UR sig nD τ) ℕ (cfgs p) c) (c : Dev nD) :
    Pipeline.afterTail₀ cfgs dats 0 (entry0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg3 (by exact (by decide : ∀ w, Pipeline.arrRef spec0 w ≠ main_arg3))]
  exact entry_main_arg3 m c

/-- Nor does the line after it: `main_arg4`, which the launch does not stage, ends as it began. -/
theorem final_main_arg4 (dats : (p : Fin _) → (c : Dev nD) → Dat τ (Elt F) Unit ℕ (UR sig nD τ) ℕ (cfgs p) c) (c : Dev nD) :
    Pipeline.afterTail₀ cfgs dats 0 (entry0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg4 (by exact (by decide : ∀ w, Pipeline.arrRef spec0 w ≠ main_arg4))]
  exact entry_main_arg4 m c

/-- Nor does the line after it: `main_arg5`, which the launch does not stage, ends as it began. -/
theorem final_main_arg5 (dats : (p : Fin _) → (c : Dev nD) → Dat τ (Elt F) Unit ℕ (UR sig nD τ) ℕ (cfgs p) c) (c : Dev nD) :
    Pipeline.afterTail₀ cfgs dats 0 (entry0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg5 (by exact (by decide : ∀ w, Pipeline.arrRef spec0 w ≠ main_arg5))]
  exact entry_main_arg5 m c

/-- Nor does the line after it: `main_arg6`, which the launch does not stage, ends as it began. -/
theorem final_main_arg6 (dats : (p : Fin _) → (c : Dev nD) → Dat τ (Elt F) Unit ℕ (UR sig nD τ) ℕ (cfgs p) c) (c : Dev nD) :
    Pipeline.afterTail₀ cfgs dats 0 (entry0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg6 (by exact (by decide : ∀ w, Pipeline.arrRef spec0 w ≠ main_arg6))]
  exact entry_main_arg6 m c

end Cert.Kernel.Frame

end
-- ==== Proof.Kernel.Tile.lean ====
/-
  One grid point of the launch: the body reads a tile of 128 rows of the activations (128 × 2048), the whole stacked
  weight matrix (6144 × 2048) and the whole bias (6144), and overwrites its output tile (128 × 6144) with the tile's
  rows times the transposed weights plus the bias along every row. It also reads the output tile before overwriting
  it; the value read is used nowhere. All four accesses are of whole buffers, so the single store covers the output
  tile and what the tile holds afterwards is one function of the three inputs.
-/
import proofs.«107753_j30571577213783_2_alg».proof.Proof.Gen.Kernel.Launch
import proofs.«107753_j30571577213783_2_alg».proof.Proof.Gen.Kernel.Skeleton
import proofs.«107753_j30571577213783_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four whole-buffer rectangles the body accesses -/

abbrev rowsRect : Rect S128x2048 := Rect.unit (s := S128x2048) ![0, 0] S128x2048.size inb_S128x2048_S128x2048_0_0
abbrev weightRect : Rect S6144x2048 := Rect.unit (s := S6144x2048) ![0, 0] S6144x2048.size inb_S6144x2048_S6144x2048_0_0
abbrev biasRect : Rect S6144 := Rect.unit (s := S6144) ![0] S6144.size inb_S6144_S6144_0
abbrev outRect : Rect S128x6144 := Rect.unit (s := S128x6144) ![0, 0] S128x6144.size inb_S128x6144_S128x6144_0_0

/-! ## What the body leaves in the output tile -/

/-- The output tile after the body, as a function of the three input buffers: its one store, of the body's arithmetic
    applied to the three loads. -/
def tileOut (x : Vec F S128x2048 .f32) (w : Vec F S6144x2048 .bf16) (b : Vec F S6144 .f32) : Vec F S128x6144 .f32 :=
  View.canon [⟨outRect, k0_pay1 (View.ld x rowsRect) (View.ld w weightRect) (View.ld b biasRect)⟩]

/-- The one store covers the whole tile. -/
theorem tile_covered (p0 : Vec F S128x6144 .f32) (y : S128x6144.Idx) :
    ∃ pc ∈ ([⟨outRect, p0⟩] : List (View.Piece (Elt F) S128x6144 .f32)), y ∈ pc.1.set :=
  View.cover_of_tiled [⟨outRect, p0⟩] S128x6144.size (by rfl) y

/-! ## The body's triple -/

set_option maxHeartbeats 1000000 in
/-- Run on four whole buffers — the inputs holding `x`, `w`, `b`, the output tile holding anything — the body ends with
    the inputs unchanged and the output tile at `tileOut x w b`. -/
theorem tile_triple (c : Dev nD) (E : Set ℕ) (i : grid0.Coords)
    (arg1 : Memref sig .tc .vmem S128x2048 .f32) (harg1 : arg1.IsWhole) (arg2 : Memref sig .tc .vmem S6144x2048 .bf16) (harg2 : arg2.IsWhole)
    (arg3 : Memref sig .tc .vmem S6144 .f32) (harg3 : arg3.IsWhole) (arg4 : Memref sig .tc .vmem S128x6144 .f32) (harg4 : arg4.IsWhole)
    (x : Vec F S128x2048 .f32) (w : Vec F S6144x2048 .bf16) (b : Vec F S6144 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (tileOut x w b)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_covered _)

end Cert.Kernel.Frame

end
-- ==== Proof.Kernel.Run.lean ====
/-
  The launch as a whole. The grid has 128 points; point `t` stages rows 128·t … 128·t+127 of the activations, the whole
  weight matrix and the whole bias, runs the body, and writes the output tile back to rows 128·t … 128·t+127 of the
  result. The proof data say: every input buffer holds its block of the array as the launch found it, at every point;
  the output buffer holds the body's function of those blocks. From the library's launch theorem the program then
  terminates without fault, and every argument array ends as it began: seven of them no line and no window touches, the
  bias is staged by an input window and never written back.
-/
import proofs.«107753_j30571577213783_2_alg».proof.Proof.Kernel.Around
import proofs.«107753_j30571577213783_2_alg».proof.Proof.Kernel.Tile

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds the window's block at every grid point, whether the pipeline fetched it
    there or kept it from the point before (its block index had not moved). -/
theorem held0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds the window's block at every grid point, whether the pipeline fetched it
    there or kept it from the point before (its block index had not moved). -/
theorem held1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds the window's block at every grid point, whether the pipeline fetched it
    there or kept it from the point before (its block index had not moved). -/
theorem held2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The proof data of the launch -/

/-- On core `c`: the arrays as the launch finds them; after the body at point `t` each input buffer at its block and the
    output buffer at the body's function of the three blocks; nothing else held, nothing owed, full shares. -/
def launchData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => tileOut (blockAt m c 0 t) (blockAt m c 1 t) (blockAt m c 2 t)
  Φ _ := Pipeline.ΦA spec0 c
  q _ := fullShare
  owed _ := 0

theorem arrays_eq (c : Dev nD) (w : Fin cfg0.W) : (launchData m 0 c).A w = entry m c (Pipeline.arrRef spec0 w) := by
  dsimp only [launchData]

theorem after_rows (c : Dev nD) (t : Fin cfg0.N) : (launchData m 0 c).after 0 t = blockAt m c 0 t := by dsimp only [launchData]
theorem after_weight (c : Dev nD) (t : Fin cfg0.N) : (launchData m 0 c).after 1 t = blockAt m c 1 t := by dsimp only [launchData]
theorem after_bias (c : Dev nD) (t : Fin cfg0.N) : (launchData m 0 c).after 2 t = blockAt m c 2 t := by dsimp only [launchData]
theorem after_out (c : Dev nD) (t : Fin cfg0.N) :
    (launchData m 0 c).after 3 t = tileOut (blockAt m c 0 t) (blockAt m c 1 t) (blockAt m c 2 t) := by dsimp only [launchData]

theorem held_rows (c : Dev nD) (t : Fin cfg0.N) (d) : (launchData m 0 c).before 0 t d = blockAt m c 0 t :=
  held0_of m (launchData m 0 c) (arrays_eq m c 0) (after_rows m c) t d
theorem held_weight (c : Dev nD) (t : Fin cfg0.N) (d) : (launchData m 0 c).before 1 t d = blockAt m c 1 t :=
  held1_of m (launchData m 0 c) (arrays_eq m c 1) (after_weight m c) t d
theorem held_bias (c : Dev nD) (t : Fin cfg0.N) (d) : (launchData m 0 c).before 2 t d = blockAt m c 2 t :=
  held2_of m (launchData m 0 c) (arrays_eq m c 2) (after_bias m c) t d

/-! ## The body at a generic grid point -/

/-- What the pipeline hands the body at point `t`, -/
def pointPre (c : Dev nD) (t : Fin cfg0.N) : sProp 𝕄 :=
  iprop((launchData m 0 c).Φ t.castSucc ∗ (launchData m 0 c).owesAt () t.castSucc
    ∗ (∃ d, owns (c : Thread nD τ) (st0_0 t) fullShare ((launchData m 0 c).before 0 t d))
    ∗ (∃ d, owns (c : Thread nD τ) (st0_1 t) fullShare ((launchData m 0 c).before 1 t d))
    ∗ (∃ d, owns (c : Thread nD τ) (st0_2 t) fullShare ((launchData m 0 c).before 2 t d))
    ∗ (∃ d, owns (c : Thread nD τ) (st0_3 t) fullShare ((launchData m 0 c).before 3 t d)))

/-- and what the body hands back. -/
def pointPost (c : Dev nD) (t : Fin cfg0.N) : sProp 𝕄 :=
  iprop((launchData m 0 c).Φ t.succ ∗ (launchData m 0 c).owesAt () t.succ
    ∗ owns (c : Thread nD τ) (st0_0 t) fullShare ((launchData m 0 c).after 0 t)
    ∗ owns (c : Thread nD τ) (st0_1 t) fullShare ((launchData m 0 c).after 1 t)
    ∗ owns (c : Thread nD τ) (st0_2 t) fullShare ((launchData m 0 c).after 2 t)
    ∗ owns (c : Thread nD τ) (st0_3 t) fullShare ((launchData m 0 c).after 3 t))

/-- At any point the three input buffers hold their blocks, so the body's triple applies; the rest passes through. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [held_rows, held_weight, held_bias]
  rw [show (launchData m 0 c).Φ t.succ = (launchData m 0 c).Φ t.castSucc from rfl,
    show (launchData m 0 c).owesAt () t.succ = (launchData m 0 c).owesAt () t.castSucc from rfl,
    after_rows, after_weight, after_bias, after_out]
  iintro ⟨HΦ, Ho, ⟨%d0, H0⟩, ⟨%d1, H1⟩, ⟨%d2, H2⟩, ⟨%d3, H3⟩⟩
  iapply (tile_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's obligation on the body, at every point. -/
theorem every_point (c : Dev nD) : BodyObligation (launchData (F := F) m 0 c) (defs₀ (F := F)) Variants.none () Set.univ := fun t => by
  rw [bigSep_W0, bigSep_W0]
  exact point_sound m c t

/-! ## The run -/

set_option backward.isDefEq.respectTransparency.types false in
/-- From any memory with zero counters every weakly fair execution of the program terminates without fault; afterwards each
    array the launch stages holds what the library computes from the proof data, and every other buffer what the line
    after the launch leaves. -/
theorem run_around : θ_run defs (onTc (τ := τ) (main (F := F))) (s₀ m ρ)
    (Pipeline.FramePost cfgs (launchData m) 0 (Pipeline.afterTail₀ cfgs (launchData m) 0 (entry0 m) [hostOps1])) :=
  Pipeline.θ_run_frame_around cfgs (launchData m) (0 : Fin 1) launch0 defs₀ Variants.none m ρ main
    (hbody := fun c => (every_point m c).loose) (hshare := fun c => (launchData m 0 c).share_full fun _ => rfl)
    (howed := fun _ _ => rfl) (V₀ := entry0 m) (opss := [hostOps1]) (hsub := tail_sub) (hfresh := tail_fresh) (hkeep := tail_keeps)
    (hmain := main_around m Variants.none) (hA := arrays_eq m) (hΦ := fun _ _ => rfl)

/-! ## The arguments end unchanged -/

/-- After the run the bias, which input window 2 stages and never writes back, is as launched. -/
theorem bias_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg7) = m ((c.tc : Thread nD τ).loc main_arg7) :=
  ((h c).1 2).trans (((launchData m 0 c).arrAt_in 2 rfl _).trans ((arrays_eq m c 2).trans (entry_main_arg7 m c)))

/-- After the run `main_arg0`, which nothing stages and no line writes, is as launched. -/
theorem main_arg0_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg0) = m ((c.tc : Thread nD τ).loc main_arg0) :=
  ((h c).2 main_arg0 (Pipeline.mem_restRefs_of main_arg0 (by decide) (by decide))).trans (final_main_arg0 m (launchData m) c)

/-- After the run `main_arg1`, which nothing stages and no line writes, is as launched. -/
theorem main_arg1_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg1) = m ((c.tc : Thread nD τ).loc main_arg1) :=
  ((h c).2 main_arg1 (Pipeline.mem_restRefs_of main_arg1 (by decide) (by decide))).trans (final_main_arg1 m (launchData m) c)

/-- After the run `main_arg2`, which nothing stages and no line writes, is as launched. -/
theorem main_arg2_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg2) = m ((c.tc : Thread nD τ).loc main_arg2) :=
  ((h c).2 main_arg2 (Pipeline.mem_restRefs_of main_arg2 (by decide) (by decide))).trans (final_main_arg2 m (launchData m) c)

/-- After the run `main_arg3`, which nothing stages and no line writes, is as launched. -/
theorem main_arg3_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg3) = m ((c.tc : Thread nD τ).loc main_arg3) :=
  ((h c).2 main_arg3 (Pipeline.mem_restRefs_of main_arg3 (by decide) (by decide))).trans (final_main_arg3 m (launchData m) c)

/-- After the run `main_arg4`, which nothing stages and no line writes, is as launched. -/
theorem main_arg4_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg4) = m ((c.tc : Thread nD τ).loc main_arg4) :=
  ((h c).2 main_arg4 (Pipeline.mem_restRefs_of main_arg4 (by decide) (by decide))).trans (final_main_arg4 m (launchData m) c)

/-- After the run `main_arg5`, which nothing stages and no line writes, is as launched. -/
theorem main_arg5_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg5) = m ((c.tc : Thread nD τ).loc main_arg5) :=
  ((h c).2 main_arg5 (Pipeline.mem_restRefs_of main_arg5 (by decide) (by decide))).trans (final_main_arg5 m (launchData m) c)

/-- After the run `main_arg6`, which nothing stages and no line writes, is as launched. -/
theorem main_arg6_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg6) = m ((c.tc : Thread nD τ).loc main_arg6) :=
  ((h c).2 main_arg6 (Pipeline.mem_restRefs_of main_arg6 (by decide) (by decide))).trans (final_main_arg6 m (launchData m) c)

/-- The frame: the program runs to the end, faults nowhere, and leaves its eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨main_arg0_kept m r h c, main_arg1_kept m r h c, main_arg2_kept m r h c, main_arg3_kept m r h c, main_arg4_kept m r h c, main_arg5_kept m r h c, main_arg6_kept m r h c, bias_kept m r h c⟩) (run_around m ρ)

end Cert.Kernel.Frame

end
-- ==== Proof.KernelIdeal.Around.lean ====
/-
  The program around its one launch. Before the launch the host reshapes the activations to a matrix of 16384 rows,
  turns each of the three masks into zeros and ones, multiplies each weight matrix by its mask entry by entry, stacks
  the three products row-wise into one matrix of 6144 rows and changes its format; after the launch it reshapes the
  16384 × 6144 result back to 2 × 8192 × 6144. None of these lines writes an argument array, none writes an array the
  launch stages, and the one line after the launch touches only the launch's result and its own.
-/
import proofs.«107753_j30571577213783_2_alg».proof.Proof.Gen.KernelIdeal.Launch
import proofs.«107753_j30571577213783_2_alg».proof.Proof.Gen.KernelIdeal.Skeleton
import proofs.«107753_j30571577213783_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the launch finds them -/

/-- Every buffer of core `c` after the nine host lines that precede the launch. -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- The host lines allocate nothing. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- The program is: the lines before the launch, the launch, the line after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the launch touches only arrays of the launch and buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- And it writes its own result only, which is no array the launch stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-! ## The argument arrays are never written by a host line -/

/-- No line before the launch writes `main_arg0`. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg1`. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg2`. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg3`. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg4`. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg5`. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg6`. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No line before the launch writes `main_arg7`. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it: `main_arg0`, which the launch does not stage, ends as it began. -/
theorem final_main_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg0 (by exact (by decide : ∀ w, Pipeline.arrRef spec0 w ≠ main_arg0))]
  exact entry_main_arg0 m c

/-- Nor does the line after it: `main_arg1`, which the launch does not stage, ends as it began. -/
theorem final_main_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg1 (by exact (by decide : ∀ w, Pipeline.arrRef spec0 w ≠ main_arg1))]
  exact entry_main_arg1 m c

/-- Nor does the line after it: `main_arg2`, which the launch does not stage, ends as it began. -/
theorem final_main_arg2 (dats : (p : Fin _) → (c : Dev nD) → Dat τ (Elt F) Unit ℕ (UR sig nD τ) ℕ (cfgs p) c) (c : Dev nD) :
    Pipeline.afterTail₀ cfgs dats 0 (entry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg2 (by exact (by decide : ∀ w, Pipeline.arrRef spec0 w ≠ main_arg2))]
  exact entry_main_arg2 m c

/-- Nor does the line after it: `main_arg3`, which the launch does not stage, ends as it began. -/
theorem final_main_arg3 (dats : (p : Fin _) → (c : Dev nD) → Dat τ (Elt F) Unit ℕ (UR sig nD τ) ℕ (cfgs p) c) (c : Dev nD) :
    Pipeline.afterTail₀ cfgs dats 0 (entry0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg3 (by exact (by decide : ∀ w, Pipeline.arrRef spec0 w ≠ main_arg3))]
  exact entry_main_arg3 m c

/-- Nor does the line after it: `main_arg4`, which the launch does not stage, ends as it began. -/
theorem final_main_arg4 (dats : (p : Fin _) → (c : Dev nD) → Dat τ (Elt F) Unit ℕ (UR sig nD τ) ℕ (cfgs p) c) (c : Dev nD) :
    Pipeline.afterTail₀ cfgs dats 0 (entry0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg4 (by exact (by decide : ∀ w, Pipeline.arrRef spec0 w ≠ main_arg4))]
  exact entry_main_arg4 m c

/-- Nor does the line after it: `main_arg5`, which the launch does not stage, ends as it began. -/
theorem final_main_arg5 (dats : (p : Fin _) → (c : Dev nD) → Dat τ (Elt F) Unit ℕ (UR sig nD τ) ℕ (cfgs p) c) (c : Dev nD) :
    Pipeline.afterTail₀ cfgs dats 0 (entry0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg5 (by exact (by decide : ∀ w, Pipeline.arrRef spec0 w ≠ main_arg5))]
  exact entry_main_arg5 m c

/-- Nor does the line after it: `main_arg6`, which the launch does not stage, ends as it began. -/
theorem final_main_arg6 (dats : (p : Fin _) → (c : Dev nD) → Dat τ (Elt F) Unit ℕ (UR sig nD τ) ℕ (cfgs p) c) (c : Dev nD) :
    Pipeline.afterTail₀ cfgs dats 0 (entry0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (entry0 m c) _ main_arg6 (by exact (by decide : ∀ w, Pipeline.arrRef spec0 w ≠ main_arg6))]
  exact entry_main_arg6 m c

end Cert.KernelIdeal.Frame

end
-- ==== Proof.KernelIdeal.Tile.lean ====
/-
  One grid point of the launch: the body reads a tile of 128 rows of the activations (128 × 2048), the whole stacked
  weight matrix (6144 × 2048) and the whole bias (6144), and overwrites its output tile (128 × 6144) with the tile's
  rows times the transposed weights plus the bias along every row. It also reads the output tile before overwriting
  it; the value read is used nowhere. All four accesses are of whole buffers, so the single store covers the output
  tile and what the tile holds afterwards is one function of the three inputs.
-/
import proofs.«107753_j30571577213783_2_alg».proof.Proof.Gen.KernelIdeal.Launch
import proofs.«107753_j30571577213783_2_alg».proof.Proof.Gen.KernelIdeal.Skeleton
import proofs.«107753_j30571577213783_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four whole-buffer rectangles the body accesses -/

abbrev rowsRect : Rect S128x2048 := Rect.unit (s := S128x2048) ![0, 0] S128x2048.size inb_S128x2048_S128x2048_0_0
abbrev weightRect : Rect S6144x2048 := Rect.unit (s := S6144x2048) ![0, 0] S6144x2048.size inb_S6144x2048_S6144x2048_0_0
abbrev biasRect : Rect S6144 := Rect.unit (s := S6144) ![0] S6144.size inb_S6144_S6144_0
abbrev outRect : Rect S128x6144 := Rect.unit (s := S128x6144) ![0, 0] S128x6144.size inb_S128x6144_S128x6144_0_0

/-! ## What the body leaves in the output tile -/

/-- The output tile after the body, as a function of the three input buffers: its one store, of the body's arithmetic
    applied to the three loads. -/
def tileOut (x : Vec F S128x2048 .f32) (w : Vec F S6144x2048 .bf16) (b : Vec F S6144 .f32) : Vec F S128x6144 .f32 :=
  View.canon [⟨outRect, k0_pay1 (View.ld x rowsRect) (View.ld w weightRect) (View.ld b biasRect)⟩]

/-- The one store covers the whole tile. -/
theorem tile_covered (p0 : Vec F S128x6144 .f32) (y : S128x6144.Idx) :
    ∃ pc ∈ ([⟨outRect, p0⟩] : List (View.Piece (Elt F) S128x6144 .f32)), y ∈ pc.1.set :=
  View.cover_of_tiled [⟨outRect, p0⟩] S128x6144.size (by rfl) y

/-! ## The body's triple -/

set_option maxHeartbeats 1000000 in
/-- Run on four whole buffers — the inputs holding `x`, `w`, `b`, the output tile holding anything — the body ends with
    the inputs unchanged and the output tile at `tileOut x w b`. -/
theorem tile_triple (c : Dev nD) (E : Set ℕ) (i : grid0.Coords)
    (arg1 : Memref sig .tc .vmem S128x2048 .f32) (harg1 : arg1.IsWhole) (arg2 : Memref sig .tc .vmem S6144x2048 .bf16) (harg2 : arg2.IsWhole)
    (arg3 : Memref sig .tc .vmem S6144 .f32) (harg3 : arg3.IsWhole) (arg4 : Memref sig .tc .vmem S128x6144 .f32) (harg4 : arg4.IsWhole)
    (x : Vec F S128x2048 .f32) (w : Vec F S6144x2048 .bf16) (b : Vec F S6144 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (tileOut x w b)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_covered _)

end Cert.KernelIdeal.Frame

end
-- ==== Proof.KernelIdeal.Run.lean ====
/-
  The launch as a whole. The grid has 128 points; point `t` stages rows 128·t … 128·t+127 of the activations, the whole
  weight matrix and the whole bias, runs the body, and writes the output tile back to rows 128·t … 128·t+127 of the
  result. The proof data say: every input buffer holds its block of the array as the launch found it, at every point;
  the output buffer holds the body's function of those blocks. From the library's launch theorem the program then
  terminates without fault, and every argument array ends as it began: seven of them no line and no window touches, the
  bias is staged by an input window and never written back.
-/
import proofs.«107753_j30571577213783_2_alg».proof.Proof.KernelIdeal.Around
import proofs.«107753_j30571577213783_2_alg».proof.Proof.KernelIdeal.Tile

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds the window's block at every grid point, whether the pipeline fetched it
    there or kept it from the point before (its block index had not moved). -/
theorem held0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds the window's block at every grid point, whether the pipeline fetched it
    there or kept it from the point before (its block index had not moved). -/
theorem held1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds the window's block at every grid point, whether the pipeline fetched it
    there or kept it from the point before (its block index had not moved). -/
theorem held2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The proof data of the launch -/

/-- On core `c`: the arrays as the launch finds them; after the body at point `t` each input buffer at its block and the
    output buffer at the body's function of the three blocks; nothing else held, nothing owed, full shares. -/
def launchData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => tileOut (blockAt m c 0 t) (blockAt m c 1 t) (blockAt m c 2 t)
  Φ _ := Pipeline.ΦA spec0 c
  q _ := fullShare
  owed _ := 0

theorem arrays_eq (c : Dev nD) (w : Fin cfg0.W) : (launchData m 0 c).A w = entry m c (Pipeline.arrRef spec0 w) := by
  dsimp only [launchData]

theorem after_rows (c : Dev nD) (t : Fin cfg0.N) : (launchData m 0 c).after 0 t = blockAt m c 0 t := by dsimp only [launchData]
theorem after_weight (c : Dev nD) (t : Fin cfg0.N) : (launchData m 0 c).after 1 t = blockAt m c 1 t := by dsimp only [launchData]
theorem after_bias (c : Dev nD) (t : Fin cfg0.N) : (launchData m 0 c).after 2 t = blockAt m c 2 t := by dsimp only [launchData]
theorem after_out (c : Dev nD) (t : Fin cfg0.N) :
    (launchData m 0 c).after 3 t = tileOut (blockAt m c 0 t) (blockAt m c 1 t) (blockAt m c 2 t) := by dsimp only [launchData]

theorem held_rows (c : Dev nD) (t : Fin cfg0.N) (d) : (launchData m 0 c).before 0 t d = blockAt m c 0 t :=
  held0_of m (launchData m 0 c) (arrays_eq m c 0) (after_rows m c) t d
theorem held_weight (c : Dev nD) (t : Fin cfg0.N) (d) : (launchData m 0 c).before 1 t d = blockAt m c 1 t :=
  held1_of m (launchData m 0 c) (arrays_eq m c 1) (after_weight m c) t d
theorem held_bias (c : Dev nD) (t : Fin cfg0.N) (d) : (launchData m 0 c).before 2 t d = blockAt m c 2 t :=
  held2_of m (launchData m 0 c) (arrays_eq m c 2) (after_bias m c) t d

/-! ## The body at a generic grid point -/

/-- What the pipeline hands the body at point `t`, -/
def pointPre (c : Dev nD) (t : Fin cfg0.N) : sProp 𝕄 :=
  iprop((launchData m 0 c).Φ t.castSucc ∗ (launchData m 0 c).owesAt () t.castSucc
    ∗ (∃ d, owns (c : Thread nD τ) (st0_0 t) fullShare ((launchData m 0 c).before 0 t d))
    ∗ (∃ d, owns (c : Thread nD τ) (st0_1 t) fullShare ((launchData m 0 c).before 1 t d))
    ∗ (∃ d, owns (c : Thread nD τ) (st0_2 t) fullShare ((launchData m 0 c).before 2 t d))
    ∗ (∃ d, owns (c : Thread nD τ) (st0_3 t) fullShare ((launchData m 0 c).before 3 t d)))

/-- and what the body hands back. -/
def pointPost (c : Dev nD) (t : Fin cfg0.N) : sProp 𝕄 :=
  iprop((launchData m 0 c).Φ t.succ ∗ (launchData m 0 c).owesAt () t.succ
    ∗ owns (c : Thread nD τ) (st0_0 t) fullShare ((launchData m 0 c).after 0 t)
    ∗ owns (c : Thread nD τ) (st0_1 t) fullShare ((launchData m 0 c).after 1 t)
    ∗ owns (c : Thread nD τ) (st0_2 t) fullShare ((launchData m 0 c).after 2 t)
    ∗ owns (c : Thread nD τ) (st0_3 t) fullShare ((launchData m 0 c).after 3 t))

/-- At any point the three input buffers hold their blocks, so the body's triple applies; the rest passes through. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [held_rows, held_weight, held_bias]
  rw [show (launchData m 0 c).Φ t.succ = (launchData m 0 c).Φ t.castSucc from rfl,
    show (launchData m 0 c).owesAt () t.succ = (launchData m 0 c).owesAt () t.castSucc from rfl,
    after_rows, after_weight, after_bias, after_out]
  iintro ⟨HΦ, Ho, ⟨%d0, H0⟩, ⟨%d1, H1⟩, ⟨%d2, H2⟩, ⟨%d3, H3⟩⟩
  iapply (tile_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's obligation on the body, at every point. -/
theorem every_point (c : Dev nD) : BodyObligation (launchData (F := F) m 0 c) (defs₀ (F := F)) Variants.none () Set.univ := fun t => by
  rw [bigSep_W0, bigSep_W0]
  exact point_sound m c t

/-! ## The run -/

set_option backward.isDefEq.respectTransparency.types false in
/-- From any memory with zero counters every weakly fair execution of the program terminates without fault; afterwards each
    array the launch stages holds what the library computes from the proof data, and every other buffer what the line
    after the launch leaves. -/
theorem run_around : θ_run defs (onTc (τ := τ) (main (F := F))) (s₀ m ρ)
    (Pipeline.FramePost cfgs (launchData m) 0 (Pipeline.afterTail₀ cfgs (launchData m) 0 (entry0 m) [hostOps1])) :=
  Pipeline.θ_run_frame_around cfgs (launchData m) (0 : Fin 1) launch0 defs₀ Variants.none m ρ main
    (hbody := fun c => (every_point m c).loose) (hshare := fun c => (launchData m 0 c).share_full fun _ => rfl)
    (howed := fun _ _ => rfl) (V₀ := entry0 m) (opss := [hostOps1]) (hsub := tail_sub) (hfresh := tail_fresh) (hkeep := tail_keeps)
    (hmain := main_around m Variants.none) (hA := arrays_eq m) (hΦ := fun _ _ => rfl)

/-! ## The arguments end unchanged -/

/-- After the run the bias, which input window 2 stages and never writes back, is as launched. -/
theorem bias_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg7) = m ((c.tc : Thread nD τ).loc main_arg7) :=
  ((h c).1 2).trans (((launchData m 0 c).arrAt_in 2 rfl _).trans ((arrays_eq m c 2).trans (entry_main_arg7 m c)))

/-- After the run `main_arg0`, which nothing stages and no line writes, is as launched. -/
theorem main_arg0_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg0) = m ((c.tc : Thread nD τ).loc main_arg0) :=
  ((h c).2 main_arg0 (Pipeline.mem_restRefs_of main_arg0 (by decide) (by decide))).trans (final_main_arg0 m (launchData m) c)

/-- After the run `main_arg1`, which nothing stages and no line writes, is as launched. -/
theorem main_arg1_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg1) = m ((c.tc : Thread nD τ).loc main_arg1) :=
  ((h c).2 main_arg1 (Pipeline.mem_restRefs_of main_arg1 (by decide) (by decide))).trans (final_main_arg1 m (launchData m) c)

/-- After the run `main_arg2`, which nothing stages and no line writes, is as launched. -/
theorem main_arg2_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg2) = m ((c.tc : Thread nD τ).loc main_arg2) :=
  ((h c).2 main_arg2 (Pipeline.mem_restRefs_of main_arg2 (by decide) (by decide))).trans (final_main_arg2 m (launchData m) c)

/-- After the run `main_arg3`, which nothing stages and no line writes, is as launched. -/
theorem main_arg3_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg3) = m ((c.tc : Thread nD τ).loc main_arg3) :=
  ((h c).2 main_arg3 (Pipeline.mem_restRefs_of main_arg3 (by decide) (by decide))).trans (final_main_arg3 m (launchData m) c)

/-- After the run `main_arg4`, which nothing stages and no line writes, is as launched. -/
theorem main_arg4_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg4) = m ((c.tc : Thread nD τ).loc main_arg4) :=
  ((h c).2 main_arg4 (Pipeline.mem_restRefs_of main_arg4 (by decide) (by decide))).trans (final_main_arg4 m (launchData m) c)

/-- After the run `main_arg5`, which nothing stages and no line writes, is as launched. -/
theorem main_arg5_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg5) = m ((c.tc : Thread nD τ).loc main_arg5) :=
  ((h c).2 main_arg5 (Pipeline.mem_restRefs_of main_arg5 (by decide) (by decide))).trans (final_main_arg5 m (launchData m) c)

/-- After the run `main_arg6`, which nothing stages and no line writes, is as launched. -/
theorem main_arg6_kept (r : PUnit × MemSt nD τ sig (Elt F))
    (h : Pipeline.FramePost cfgs (launchData m) 0 (Pipeline.afterTail₀ cfgs (launchData m) 0 (entry0 m) [hostOps1]) r) (c : Dev nD) :
    r.2.mem ((c.tc : Thread nD τ).loc main_arg6) = m ((c.tc : Thread nD τ).loc main_arg6) :=
  ((h c).2 main_arg6 (Pipeline.mem_restRefs_of main_arg6 (by decide) (by decide))).trans (final_main_arg6 m (launchData m) c)

/-- The frame: the program runs to the end, faults nowhere, and leaves its eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨main_arg0_kept m r h c, main_arg1_kept m r h c, main_arg2_kept m r h c, main_arg3_kept m r h c, main_arg4_kept m r h c, main_arg5_kept m r h c, main_arg6_kept m r h c, bias_kept m r h c⟩) (run_around m ρ)

end Cert.KernelIdeal.Frame

end
-- ==== Proof.KernelIdeal.TileValue.lean ====
/-
  The arithmetic of one output tile, read entry by entry on the extended reals.
-/
import proofs.«107753_j30571577213783_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

/-! The contraction of the tile's matrix product has one axis, of 2048 entries; both operands are contracted along
    their second axis, and their first axes are the output's two axes. -/

theorem rows_axis0 (i : S128x6144.Idx) (c : dot_S128x2048_S6144x2048_S128x6144_1_1_0_0_n_n.contr.Idx) : (dot_S128x2048_S6144x2048_S128x6144_1_1_0_0_n_n.lhsIdx i c 0).val = (i 0).val := by
  unfold DotDims.lhsIdx
  rw [dif_neg (show ¬(0 : Fin S128x2048.rank) ∈ dot_S128x2048_S6144x2048_S128x6144_1_1_0_0_n_n.lhsBatch by decide), dif_pos (show (0 : Fin S128x2048.rank) ∈ dot_S128x2048_S6144x2048_S128x6144_1_1_0_0_n_n.lhsNonContracting by decide)]
  rfl
theorem rows_axis1 (i : S128x6144.Idx) (c : dot_S128x2048_S6144x2048_S128x6144_1_1_0_0_n_n.contr.Idx) : (dot_S128x2048_S6144x2048_S128x6144_1_1_0_0_n_n.lhsIdx i c 1).val = (c ⟨0, by decide⟩).val :=
  dot_S128x2048_S6144x2048_S128x6144_1_1_0_0_n_n.lhsIdx_val_of_single rfl i c
theorem weights_axis0 (i : S128x6144.Idx) (c : dot_S128x2048_S6144x2048_S128x6144_1_1_0_0_n_n.contr.Idx) : (dot_S128x2048_S6144x2048_S128x6144_1_1_0_0_n_n.rhsIdx i c 0).val = (i 1).val := by
  unfold DotDims.rhsIdx
  rw [dif_neg (show ¬(0 : Fin S6144x2048.rank) ∈ dot_S128x2048_S6144x2048_S128x6144_1_1_0_0_n_n.rhsBatch by decide), dif_pos (show (0 : Fin S6144x2048.rank) ∈ dot_S128x2048_S6144x2048_S128x6144_1_1_0_0_n_n.rhsNonContracting by decide)]
  rfl
theorem weights_axis1 (i : S128x6144.Idx) (c : dot_S128x2048_S6144x2048_S128x6144_1_1_0_0_n_n.contr.Idx) : (dot_S128x2048_S6144x2048_S128x6144_1_1_0_0_n_n.rhsIdx i c 1).val = (c ⟨0, by decide⟩).val :=
  dot_S128x2048_S6144x2048_S128x6144_1_1_0_0_n_n.rhsIdx_val_of_single rfl i c

/-- Output entry `(p, q)` and contraction index `k` pair entry `(p, k)` of the tile's rows -/
theorem rows_operand (p : Fin 128) (q : Fin 6144) (k : Fin 2048) :
    dot_S128x2048_S6144x2048_S128x6144_1_1_0_0_n_n.lhsIdx (ix2 p q) ((contrEquiv1 dot_S128x2048_S6144x2048_S128x6144_1_1_0_0_n_n 2048 rfl rfl).symm k) = ix2 p k := by
  have hk := contrEquiv1_symm_val dot_S128x2048_S6144x2048_S128x6144_1_1_0_0_n_n 2048 rfl rfl k
  exact funext fun a => Fin.ext (by
    match a with
    | ⟨0, _⟩ => exact rows_axis0 _ _
    | ⟨1, _⟩ => exact (rows_axis1 _ _).trans hk)

/-- with entry `(q, k)` of the weights. -/
theorem weights_operand (p : Fin 128) (q : Fin 6144) (k : Fin 2048) :
    dot_S128x2048_S6144x2048_S128x6144_1_1_0_0_n_n.rhsIdx (ix2 p q) ((contrEquiv1 dot_S128x2048_S6144x2048_S128x6144_1_1_0_0_n_n 2048 rfl rfl).symm k) = ix2 q k := by
  have hk := contrEquiv1_symm_val dot_S128x2048_S6144x2048_S128x6144_1_1_0_0_n_n 2048 rfl rfl k
  exact funext fun a => Fin.ext (by
    match a with
    | ⟨0, _⟩ => exact weights_axis0 _ _
    | ⟨1, _⟩ => exact (weights_axis1 _ _).trans hk)

/-- The bias, reshaped to one row and repeated down the 128 rows, read at `(p, q)` is bias entry `q`. -/
theorem bias_row (b : Vec Ideal S6144 .f32) (p : Fin 128) (q : Fin 6144) :
    broadcastTo S128x6144 (shapeCast S1x6144 b shapeCasts_S6144_S1x6144) broadcasts_S1x6144_S128x6144 (ix2 p q) = b (ix1 q) := by
  rw [broadcastTo_apply _ _ (ix2 p q) (ix2 (0 : Fin 1) q) (fun a => by
    match a with
    | ⟨0, _⟩ => show (0 : Nat) = if (1 : Nat) = 1 then 0 else p.val; rw [if_pos rfl]
    | ⟨1, _⟩ => show q.val = if (6144 : Nat) = 1 then 0 else q.val; rw [if_neg (by decide)])]
  exact shapeCast_apply b _ (ix2 (0 : Fin 1) q) (ix1 q) (by
    rw [Shape.rowMajor_val_one, Shape.rowMajor_val_two]
    show q.val = 0 * 6144 + q.val
    omega)

/-- ONE ENTRY OF THE TILE. With floats read as extended reals the change of format is the identity and the product into
    a zero accumulator is the plain sum, so entry `(p, q)` of what the body stores is the sum over `k` of
    `x[p, k] · w[q, k]`, plus `b[q]`. -/
theorem tile_entry (x : Vec Ideal S128x2048 .f32) (w : Vec Ideal S6144x2048 .bf16) (b : Vec Ideal S6144 .f32) (p : Fin 128) (q : Fin 6144) :
    k0_pay1 (F := Ideal) x w b (ix2 p q) = (∑ k : Fin 2048, x (ix2 p k) * w (ix2 q k)) + b (ix1 q) := by
  unfold k0_pay1
  rw [addf_apply, bias_row, shapeCast_self, shapeCast_self]
  congr 1
  simp only [matmul]
  rw [Ideal.matmul_constant_zero_apply, ← Equiv.sum_comp (contrEquiv1 dot_S128x2048_S6144x2048_S128x6144_1_1_0_0_n_n 2048 rfl rfl).symm]
  refine Finset.sum_congr rfl fun k _ => ?_
  rw [rows_operand, weights_operand]
  rfl

end Cert.KernelIdeal.Result

end
-- ==== Proof.KernelIdeal.Blocks.lean ====
/-
  From tiles to the whole result of the launch. Grid point `t` writes rows 128·t … 128·t + 127 of the 16384 × 6144
  result; its tile is computed from rows 128·t … of the activation matrix, the whole stacked weight matrix and the
  whole bias. Entry by entry the tile is therefore the restriction to those rows of ONE function of the three staged
  arrays, and the 128 tiles cover every row, so after the launch the result array is that function.
-/
import proofs.«107753_j30571577213783_2_alg».proof.Proof.KernelIdeal.Run
import proofs.«107753_j30571577213783_2_alg».proof.Proof.KernelIdeal.TileValue
import Idealize.ShloMosaic.Lib.Pipeline.Value

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

open Cert.KernelIdeal.Frame
open Idealize.ShloMosaic.Pipeline (Dat)

variable (m : (ℓ : Loc nD τ sig) → Buf (Elt Ideal) ℓ) (ρ : Dev nD → PrngReg)

/-- The launch's result as one function of the activation matrix `X` (16384 × 2048), the stacked weights `Wc`
    (6144 × 2048) and the bias: entry `(r, o)` is the sum over `k` of `X[r, k] · Wc[o, k]`, plus `bias[o]`. -/
def launched (X : S16384x2048.Idx → EReal) (Wc : S6144x2048.Idx → EReal) (bias : S6144.Idx → EReal) : S16384x6144.Idx → EReal :=
  fun j => (∑ k : Fin 2048, X (ix2 (j 0) k) * Wc (ix2 (j 1) k)) + bias (ix1 (j 1))

/-- `launched` at one entry. -/
theorem launched_apply (X : S16384x2048.Idx → EReal) (Wc : S6144x2048.Idx → EReal) (bias : S6144.Idx → EReal) (r : Fin 16384) (q : Fin 6144) :
    launched X Wc bias (ix2 r q) = (∑ k : Fin 2048, X (ix2 r k) * Wc (ix2 q k)) + bias (ix1 q) := rfl

theorem zero2 : (![0, 0] : Fin 2 → Nat) = fun _ => 0 := funext fun a => by fin_cases a <;> rfl
theorem zero1 : (![0] : Fin 1 → Nat) = fun _ => 0 := funext fun a => by fin_cases a <;> rfl

/-- The block indices over the grid: the activation and result windows are at row block `t`, column block 0; the weights and
    the bias are always at block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- An entry of the activation window's block at point `t` is the entry 128·t rows further down in the activation matrix. -/
theorem rows_block (c : Dev nD) (t : Fin cfg0.N) (p : Fin 128) (k : Fin 2048) (r : Fin 16384) (hr : r.val = t.val * 128 + p.val) :
    (blockAt m c 0 t : Vec Ideal S128x2048 .f32) (ix2 p k) = (entry m c main_v0 : S16384x2048.Idx → EReal) (ix2 r k) := by
  obtain ⟨e00, e01, -⟩ := block_indices t
  unfold blockAt
  rw [View.read_apply]
  show entry m c main_v0 _ = entry m c main_v0 _
  congr 1
  funext a
  apply Fin.ext
  match a with
  | ⟨0, _⟩ => show win0_0.index t 0 * 128 + 1 * p.val = r.val; rw [e00, hr]; omega
  | ⟨1, _⟩ => show win0_0.index t 1 * 2048 + 1 * k.val = k.val; rw [e01]; omega

/-- The weight window's block is the whole stacked matrix at every point. -/
theorem weights_block (c : Dev nD) (t : Fin cfg0.N) (q : Fin 6144) (k : Fin 2048) :
    (blockAt m c 1 t : Vec Ideal S6144x2048 .bf16) (ix2 q k) = (entry m c main_v8 : S6144x2048.Idx → EReal) (ix2 q k) := by
  obtain ⟨-, -, e10, e11, -⟩ := block_indices t
  unfold blockAt
  rw [View.read_apply]
  show entry m c main_v8 _ = entry m c main_v8 _
  congr 1
  funext a
  apply Fin.ext
  match a with
  | ⟨0, _⟩ => show win0_1.index t 0 * 6144 + 1 * q.val = q.val; rw [e10]; omega
  | ⟨1, _⟩ => show win0_1.index t 1 * 2048 + 1 * k.val = k.val; rw [e11]; omega

/-- The bias window's block is the whole bias at every point. -/
theorem bias_block (c : Dev nD) (t : Fin cfg0.N) (q : Fin 6144) :
    (blockAt m c 2 t : Vec Ideal S6144 .f32) (ix1 q) = (entry m c main_arg7 : S6144.Idx → EReal) (ix1 q) := by
  obtain ⟨-, -, -, -, e20, -⟩ := block_indices t
  unfold blockAt
  rw [View.read_apply]
  show entry m c main_arg7 _ = entry m c main_arg7 _
  congr 1
  funext a
  apply Fin.ext
  match a with
  | ⟨0, _⟩ => show win0_2.index t 0 * 6144 + 1 * q.val = q.val; rw [e20]; omega

/-- Entry `(p, q)` of the result window's block at point `t` is entry `(128·t + p, q)` of the result array. -/
theorem out_block_index (t : Fin cfg0.N) (p : Fin 128) (q : Fin 6144) (r : Fin 16384) (hr : r.val = t.val * 128 + p.val) :
    ((cfg0.win 3).blk t).view.emb (ix2 p q) = (ix2 r q : S16384x6144.Idx) := by
  obtain ⟨-, -, -, -, -, e30, e31⟩ := block_indices t
  funext a
  apply Fin.ext
  match a with
  | ⟨0, _⟩ => show win0_3.index t 0 * 128 + 1 * p.val = r.val; rw [e30, hr]; omega
  | ⟨1, _⟩ => show win0_3.index t 1 * 6144 + 1 * q.val = q.val; rw [e31]; omega

/-- WHAT POINT `t` WRITES BACK is block `t` of `launched` of the three staged arrays as the launch finds them. -/
theorem written_eq (c : Dev nD) (t : Fin cfg0.N) :
    (launchData m 0 c).flushed 3 t = ((cfg0.win 3).blk t).view.read (Elt Ideal)
      (launched (entry m c main_v0) (entry m c main_v8) (entry m c main_arg7)) := by
  show (cfg0.win 3).cut (grid0.coords t) ((launchData m 0 c).after 3 t) = _
  rw [after_out]
  unfold tileOut
  rw [View.canon_unit_zero zero2]
  simp only [View.ld_unit_zero (S := S128x2048) zero2, View.ld_unit_zero (S := S6144x2048) zero2, View.ld_unit_zero (S := S6144) zero1]
  funext j
  show k0_pay1 (F := Ideal) (blockAt m c 0 t) (blockAt m c 1 t) (blockAt m c 2 t) j
    = launched (entry m c main_v0) (entry m c main_v8) (entry m c main_arg7) (((cfg0.win 3).blk t).view.emb j)
  obtain ⟨p, q, rfl⟩ : ∃ (p : Fin 128) (q : Fin 6144), j = ix2 p q := ⟨j 0, j 1, eq_ix2 j⟩
  refine (tile_entry (blockAt m c 0 t) (blockAt m c 1 t) (blockAt m c 2 t) p q).trans ?_
  have hN : cfg0.N = 128 := N_0
  have ht : t.val < cfg0.N := t.isLt
  have hr : t.val * 128 + p.val < 16384 := by omega
  refine Eq.trans ?_ (congrArg (launched (entry m c main_v0) (entry m c main_v8) (entry m c main_arg7)) (out_block_index t p q ⟨_, hr⟩ rfl).symm)
  refine Eq.trans ?_ (launched_apply (entry m c main_v0) (entry m c main_v8) (entry m c main_arg7) ⟨_, hr⟩ q).symm
  exact congrArg₂ (fun a b : EReal => a + b)
    (Finset.sum_congr rfl fun k _ => congrArg₂ (fun a b : EReal => a * b) (rows_block m c t p k ⟨_, hr⟩ rfl) (weights_block m c t q k))
    (bias_block m c t q)

/-- Every entry of the result lies in the block of the point its row belongs to: row `r` in block `r / 128`. -/
theorem covered (i : S16384x6144.Idx) : ∃ t : Fin cfg0.N, (cfg0.win 3).flush t = true ∧ i ∈ ((cfg0.win 3).blk t).view.set := by
  have h0 : (i 0).val < 16384 := (i 0).isLt
  have h1 : (i 1).val < 6144 := (i 1).isLt
  have hN : cfg0.N = 128 := N_0
  have hlt : (i 0).val / 128 < cfg0.N := by omega
  obtain ⟨t, htv⟩ : ∃ t : Fin cfg0.N, t.val = (i 0).val / 128 := ⟨⟨_, hlt⟩, rfl⟩
  obtain ⟨-, -, -, -, -, e30, e31⟩ := block_indices t
  refine ⟨t, flush0_3 t, ?_⟩
  show i ∈ ((View.whole main_v9).slice (win0_3.rect t)).set
  rw [View.set_slice_whole, Rect.mem_set_unit]
  intro a
  match a with
  | ⟨0, _⟩ =>
    show win0_3.index t 0 * 128 ≤ (i 0).val ∧ (i 0).val < win0_3.index t 0 * 128 + 128
    rw [e30, htv]
    omega
  | ⟨1, _⟩ =>
    show win0_3.index t 1 * 6144 ≤ (i 1).val ∧ (i 1).val < win0_3.index t 1 * 6144 + 6144
    rw [e31]
    omega

/-- THE RESULT OF THE LAUNCH: after the last point the result array is `launched` of the three staged arrays. -/
theorem launched_final (c : Dev nD) :
    (launchData m 0 c).arrAt 3 cfg0.N = launched (entry m c main_v0) (entry m c main_v8) (entry m c main_arg7) :=
  (launchData m 0 c).arrAt_eq_of_cover 3 _ (fun t _ => written_eq m c t) covered

end Cert.KernelIdeal.Result

end
-- ==== Proof.Spec.lean ====
/-
  The specification both programs meet. The activations `x` are 2 × 8192 × 2048; each of three weight matrices
  `w n` (2048 × 2048) is multiplied entry by entry by its mask read as zeros and ones; the result is 2 × 8192 × 6144:
  output column `o` belongs to matrix `o / 2048` and is its row `o % 2048`, and

      result[b, s, o] = (sum over k of x[b, s, k] · (w n · mask n)[o % 2048, k]) + bias[o],   n = o / 2048.

  Whether the three matrices are stacked first and multiplied once, or multiplied one by one and the three products laid
  side by side, the entry is this one sum: nothing is regrouped, so no law of arithmetic is needed and the inputs need
  not be finite.
-/
import Idealize.ShloMosaic.PureOps.Ideal
import Idealize.ShloMosaic.Lib.ValueIdx

noncomputable section

namespace Cert.Spec

open Idealize.ShloMosaic Idealize.ShloMosaic.ValueIdx

abbrev Acts : Shape := ⟨3, ![2, 8192, 2048]⟩
abbrev Weight : Shape := ⟨2, ![2048, 2048]⟩
abbrev Bias : Shape := ⟨1, ![6144]⟩
abbrev Out : Shape := ⟨3, ![2, 8192, 6144]⟩

/-- The matrix an output column belongs to, and its row there. -/
abbrev pieceOf (o : Fin 6144) : Fin 3 := ⟨o.val / 2048, by have := o.isLt; omega⟩
abbrev rowOf (o : Fin 6144) : Fin 2048 := ⟨o.val % 2048, Nat.mod_lt _ (by decide)⟩

/-- One entry of the result, from the activations, three matrices and the bias. -/
def entryAt (x : Acts.Idx → EReal) (W : Fin 3 → Weight.Idx → EReal) (bias : Bias.Idx → EReal)
    (b : Fin 2) (s : Fin 8192) (o : Fin 6144) : EReal :=
  (∑ k : Fin 2048, x (ix3 b s k) * W (pieceOf o) (ix2 (rowOf o) k)) + bias (ix1 o)

/-- Each weight matrix times its mask, entry by entry. -/
def maskedWeights (w : Fin 3 → FVec Ideal Weight .f32) (msk : Fin 3 → IVec Weight 1) : Fin 3 → FVec Ideal Weight .f32 :=
  fun n => mulf (w n) (uitofp .f32 (msk n))

/-- The whole result array. -/
def result (x : Acts.Idx → EReal) (w : Fin 3 → FVec Ideal Weight .f32) (msk : Fin 3 → IVec Weight 1)
    (bias : Bias.Idx → EReal) : Out.Idx → EReal :=
  fun i => entryAt x (maskedWeights w msk) bias (i 0) (i 1) (i 2)

end Cert.Spec

end
-- ==== Proof.LibConcat3.lean ====
/-
  A general fact about joining arrays: three pieces of one shape joined along an axis.
-/
import Idealize.ShloMosaic.Lib.Pipeline.Value

noncomputable section

namespace Cert.Lib

open Idealize.ShloMosaic

variable {α : Type}

/-- Three arrays of one shape `s₁`, of extent `K` along axis `a`, joined along that axis and read at an index `j`:
    the piece `n = j[a] / K` read at the index that has `j[a] % K` on the axis and `j`'s coordinates off it. -/
theorem concatenate_three_apply {t s₁ : Shape} (a : Fin t.rank) (p : Fin 3 → (s₁.Idx → α))
    (h : Shape.Concatenates [s₁, s₁, s₁] t a) (hr : s₁.rank = t.rank) (K : Nat) (hK : s₁.size (a.cast hr.symm) = K)
    (j : t.Idx) (n : Fin 3) (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, p 0⟩, ⟨s₁, p 1⟩, ⟨s₁, p 2⟩] h j = p n i :=
  concatenate_ofFn_apply a p h hr K hK j n hn i hia hi

end Cert.Lib

end
-- ==== Proof.KernelIdeal.Result.lean ====
/-
  The idealized kernel's result as a function of its eight arguments. The activation matrix the launch stages is the
  activations reshaped to 16384 rows (row 8192·b + s is position `(b, s)`); the weights it stages are the three masked
  matrices stacked row-wise (row `o` is row `o % 2048` of matrix `o / 2048`), a change of format being the identity on the
  extended reals; the line after the launch reshapes the 16384 × 6144 result back to 2 × 8192 × 6144. Put together, entry
  `(b, s, o)` of the program's result is the specification's.
-/
import proofs.«107753_j30571577213783_2_alg».proof.Proof.KernelIdeal.Blocks
import proofs.«107753_j30571577213783_2_alg».proof.Proof.Spec
import proofs.«107753_j30571577213783_2_alg».proof.Proof.LibConcat3
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

open Cert.KernelIdeal.Frame
open Idealize.ShloMosaic.StableHlo
open Idealize.ShloMosaic.Pipeline (Dat)
open Cert.Spec (pieceOf rowOf)

variable (m : (ℓ : Loc nD τ sig) → Buf (Elt Ideal) ℓ) (ρ : Dev nD → PrngReg)

/-! ## What the launch finds in the arrays it stages -/

/-- The activation matrix: the activations reshaped. -/
theorem entry_rows (c : Dev nD) : (entry m c main_v0 : S16384x2048.Idx → EReal)
    = shapeCast S16384x2048 (m ((c : Thread nD τ).loc main_arg0)) shapeCasts_S2x8192x2048_S16384x2048 := by
  show StableHlo.after hostOps0 (fun b => m (c, b)) (Proc.devRef .tc main_v0) = _
  after_results
  rfl

/-- The stacked weights: the three masked matrices joined row-wise, in the matrix unit's format. -/
theorem entry_weights (c : Dev nD) : (entry m c main_v8 : S6144x2048.Idx → EReal)
    = truncf (F := Ideal) .bf16 (concatenate S6144x2048 0
        [⟨S2048x2048, mulf (F := Ideal) (m ((c : Thread nD τ).loc main_arg1)) (uitofp .f32 (m ((c : Thread nD τ).loc main_arg4)))⟩,
         ⟨S2048x2048, mulf (F := Ideal) (m ((c : Thread nD τ).loc main_arg2)) (uitofp .f32 (m ((c : Thread nD τ).loc main_arg5)))⟩,
         ⟨S2048x2048, mulf (F := Ideal) (m ((c : Thread nD τ).loc main_arg3)) (uitofp .f32 (m ((c : Thread nD τ).loc main_arg6)))⟩]
        concatenates_S2048x2048_S2048x2048_S2048x2048_S6144x2048_d0) bitsLt_bf16_f32 := by
  show StableHlo.after hostOps0 (fun b => m (c, b)) (Proc.devRef .tc main_v8) = _
  after_results
  rfl

/-! ## The line after the launch -/

/-- The program's result: the launch's result array reshaped to 2 × 8192 × 6144. -/
theorem result_after (c : Dev nD) : Pipeline.afterTail₀ cfgs (launchData m) 0 (entry0 m) [hostOps1] c main_v10
    = shapeCast S2x8192x6144 ((launchData m 0 c).arrAt 3 cfg0.N) shapeCasts_S16384x6144_S2x8192x6144 := by
  unfold Pipeline.afterTail₀
  show StableHlo.after hostOps1 _ (Proc.devRef .tc main_v10) = _
  after_results
  exact congrArg (fun A => shapeCast S2x8192x6144 A shapeCasts_S16384x6144_S2x8192x6144)
    (Pipeline.withArrays_arr spec0 launch0.win.arr_inj c (entry0 m c) (fun w => (launchData m 0 c).arrAt w cfg0.N) 3)

/-! ## Entry by entry -/

/-- THE KERNEL'S RESULT IS THE SPECIFICATION. Row `8192·b + s` of the reshaped activations is position `(b, s)`; row `o` of
    the stacked weights is row `o % 2048` of masked matrix `o / 2048`; so entry `(b, s, o)` of the reshaped launch result
    is the specification's entry. -/
theorem reshaped_is_result (x : FVec Ideal S2x8192x2048 .f32) (w1 w2 w3 : FVec Ideal S2048x2048 .f32)
    (k1 k2 k3 : IVec S2048x2048 1) (bias : FVec Ideal S6144 .f32) :
    shapeCast S2x8192x6144 (launched (shapeCast S16384x2048 x shapeCasts_S2x8192x2048_S16384x2048)
        (truncf (F := Ideal) .bf16 (concatenate S6144x2048 0
          [⟨S2048x2048, mulf (F := Ideal) w1 (uitofp .f32 k1)⟩, ⟨S2048x2048, mulf (F := Ideal) w2 (uitofp .f32 k2)⟩, ⟨S2048x2048, mulf (F := Ideal) w3 (uitofp .f32 k3)⟩]
          concatenates_S2048x2048_S2048x2048_S2048x2048_S6144x2048_d0) bitsLt_bf16_f32) bias) shapeCasts_S16384x6144_S2x8192x6144
    = Cert.Spec.result x ![w1, w2, w3] ![k1, k2, k3] bias := by
  funext i
  obtain ⟨b, s, o, rfl⟩ : ∃ (b : Fin 2) (s : Fin 8192) (o : Fin 6144), i = ix3 b s o := ⟨i 0, i 1, i 2, eq_ix3 i⟩
  have hb : b.val < 2 := b.isLt
  have hs : s.val < 8192 := s.isLt
  have hr : b.val * 8192 + s.val < 16384 := by omega
  refine (shapeCast_apply _ _ (ix3 b s o) (ix2 ⟨b.val * 8192 + s.val, hr⟩ o) (by
    rw [Shape.rowMajor_val_two, Shape.rowMajor_val_three]; rfl)).trans ?_
  refine (launched_apply _ _ _ ⟨b.val * 8192 + s.val, hr⟩ o).trans ?_
  unfold Cert.Spec.result Cert.Spec.entryAt
  refine congrArg₂ (fun a b : EReal => a + b) (Finset.sum_congr rfl fun k _ => congrArg₂ (fun a b : EReal => a * b) ?_ ?_) rfl
  · exact shapeCast_apply x _ (ix2 ⟨b.val * 8192 + s.val, hr⟩ k) (ix3 b s k) (by
      rw [Shape.rowMajor_val_two, Shape.rowMajor_val_three]; rfl)
  · refine (truncf_apply (s := S6144x2048) (φ := .f32) (ψ := .bf16) _ bitsLt_bf16_f32 (ix2 o k)).trans ?_
    exact Cert.Lib.concatenate_three_apply (t := S6144x2048) (s₁ := S2048x2048) (0 : Fin S6144x2048.rank)
      (Cert.Spec.maskedWeights ![w1, w2, w3] ![k1, k2, k3]) _ rfl 2048 rfl (ix2 o k) (pieceOf o) rfl (ix2 (rowOf o) k) rfl
      (fun a ha => by
        match a with
        | ⟨0, _⟩ => exact absurd rfl ha
        | ⟨1, _⟩ => rfl)

/-! ## The run, with its value -/

/-- After the run the program's result is the specification of the arguments as launched. -/
theorem value_eq (r : PUnit × MemSt nD τ sig (Elt Ideal))
    (h : Pipeline.FramePost cfgs (launchData m) 0 (Pipeline.afterTail₀ cfgs (launchData m) 0 (entry0 m) [hostOps1]) r) (c : Dev nD) :
    r.2.mem ((c.tc : Thread nD τ).loc main_v10) = Cert.Spec.result (m ((c.tc : Thread nD τ).loc main_arg0))
        ![m ((c.tc : Thread nD τ).loc main_arg1), m ((c.tc : Thread nD τ).loc main_arg2), m ((c.tc : Thread nD τ).loc main_arg3)]
        ![m ((c.tc : Thread nD τ).loc main_arg4), m ((c.tc : Thread nD τ).loc main_arg5), m ((c.tc : Thread nD τ).loc main_arg6)]
        (m ((c.tc : Thread nD τ).loc main_arg7)) := by
  refine ((h c).2 main_v10 (Pipeline.mem_restRefs_of main_v10 (by decide) (by decide))).trans ?_
  rw [result_after, launched_final, entry_rows, entry_weights, entry_main_arg7]
  exact reshaped_is_result _ _ _ _ _ _ _ _

/-- Every weakly fair execution of the idealized kernel terminates without fault, with its result at the specification and
    its eight arguments unchanged. -/
theorem run_value : θ_run defs (onTc (τ := τ) (main (F := Ideal))) ⟨m, fun _ => 0, ρ⟩ (fun r => ∀ c : Dev nD,
      r.2.mem ((c.tc : Thread nD τ).loc main_v10) = Cert.Spec.result (m ((c.tc : Thread nD τ).loc main_arg0))
        ![m ((c.tc : Thread nD τ).loc main_arg1), m ((c.tc : Thread nD τ).loc main_arg2), m ((c.tc : Thread nD τ).loc main_arg3)]
        ![m ((c.tc : Thread nD τ).loc main_arg4), m ((c.tc : Thread nD τ).loc main_arg5), m ((c.tc : Thread nD τ).loc main_arg6)]
        (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨value_eq m r h c, main_arg0_kept m r h c, main_arg1_kept m r h c, main_arg2_kept m r h c, main_arg3_kept m r h c, main_arg4_kept m r h c, main_arg5_kept m r h c, main_arg6_kept m r h c, bias_kept m r h c⟩)
    (run_around m ρ)

end Cert.KernelIdeal.Result

end
-- ==== Proof.RefValue.lean ====
/-
  The reference, read entry by entry. It multiplies the activations by each masked weight matrix separately — entry
  `(b, s, j)` of a product is the sum over `k` of `x[b, s, k] · W[j, k]` —, lays the three products side by side along
  the last axis, so that column `o` of the joined array is column `o % 2048` of product `o / 2048`, and adds the bias
  along the last axis. That is the specification's entry.
-/
import proofs.«107753_j30571577213783_2_alg».proof.Proof.Gen.ReferenceIdeal.Read
import proofs.«107753_j30571577213783_2_alg».proof.Proof.Spec
import proofs.«107753_j30571577213783_2_alg».proof.Proof.LibConcat3

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.Spec (pieceOf rowOf)

/-- The host's product of the activations with ANY 2048 × 2048 matrix `y`, contracted along the last axis of both, read
    at an index: the sum over `k` of `x[b, s, k] · y[j, k]`. -/
theorem product_apply (x0 : FVec Ideal S2x8192x2048 .f32) (y : FVec Ideal S2048x2048 .f32) (i : S2x8192x2048.Idx) :
    Host.dotGeneral (F := Ideal) dot_S2x8192x2048_S2048x2048_S2x8192x2048_2_1_01_0_n_n none x0 y i = ∑ k : Fin 2048, x0 (lidx_main_v6 i k) * y (ridx_main_v6 i k) := by
  simp only [Host.dotGeneral]
  rw [Ideal.dotGeneral_apply, ← Equiv.sum_comp (contrEquiv1 dot_S2x8192x2048_S2048x2048_S2x8192x2048_2_1_01_0_n_n 2048 rfl rfl).symm]
  refine Finset.sum_congr rfl fun k _ => ?_
  have hk := contrEquiv1_symm_val dot_S2x8192x2048_S2048x2048_S2x8192x2048_2_1_01_0_n_n 2048 rfl rfl k
  have el : dot_S2x8192x2048_S2048x2048_S2x8192x2048_2_1_01_0_n_n.lhsIdx i ((contrEquiv1 dot_S2x8192x2048_S2048x2048_S2x8192x2048_2_1_01_0_n_n 2048 rfl rfl).symm k) = lidx_main_v6 i k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S2x8192x2048_S2048x2048_S2x8192x2048_2_1_01_0_n_n.rhsIdx i ((contrEquiv1 dot_S2x8192x2048_S2048x2048_S2x8192x2048_2_1_01_0_n_n 2048 rfl rfl).symm k) = ridx_main_v6 i k := funext fun a => Fin.ext (by
    match a with
    | ⟨0, _⟩ => exact rhs_main_v6_0 _ _
    | ⟨1, _⟩ => exact (rhs_main_v6_1 _ _).trans hk)
  rw [el, er]

/-- THE REFERENCE IS THE SPECIFICATION: its last stage, as a function of the eight arguments, is `Cert.Spec.result`. -/
theorem reference_is_result (x0 : FVec Ideal S2x8192x2048 .f32) (x1 x2 x3 : FVec Ideal S2048x2048 .f32)
    (x4 x5 x6 : IVec S2048x2048 1) (x7 : FVec Ideal S6144 .f32) :
    val_main_v12 (F := Ideal) x0 x1 x2 x3 x4 x5 x6 x7 = Cert.Spec.result x0 ![x1, x2, x3] ![x4, x5, x6] x7 := by
  funext i
  obtain ⟨b, s, o, rfl⟩ : ∃ (b : Fin 2) (s : Fin 8192) (o : Fin 6144), i = ix3 b s o := ⟨i 0, i 1, i 2, eq_ix3 i⟩
  rw [val_main_v12_apply, val_main_v11_apply, val_main_v10_apply]
  unfold Cert.Spec.result Cert.Spec.entryAt
  show val_main_v9 (F := Ideal) x0 x1 x2 x3 x4 x5 x6 (ix3 b s o) + x7 _ = _ + x7 _
  congr 1
  · unfold val_main_v9
    refine (Cert.Lib.concatenate_three_apply (t := S2x8192x6144) (s₁ := S2x8192x2048) (2 : Fin S2x8192x6144.rank)
      (fun n => Host.dotGeneral (F := Ideal) dot_S2x8192x2048_S2048x2048_S2x8192x2048_2_1_01_0_n_n none x0 (Cert.Spec.maskedWeights ![x1, x2, x3] ![x4, x5, x6] n))
      _ rfl 2048 rfl (ix3 b s o) (pieceOf o) rfl (ix3 b s (rowOf o)) rfl (fun a ha => ?_)).trans ?_
    · match a with
      | ⟨0, _⟩ => rfl
      | ⟨1, _⟩ => rfl
      | ⟨2, _⟩ => exact absurd rfl ha
    · show Host.dotGeneral (F := Ideal) dot_S2x8192x2048_S2048x2048_S2x8192x2048_2_1_01_0_n_n none x0 (Cert.Spec.maskedWeights ![x1, x2, x3] ![x4, x5, x6] (pieceOf o)) (ix3 b s (rowOf o)) = _
      rw [product_apply]
      refine Finset.sum_congr rfl fun k _ => ?_
      have e1 : lidx_main_v6 (ix3 b s (rowOf o)) k = ix3 b s k := funext fun a => by
        match a with
        | ⟨0, _⟩ => rfl
        | ⟨1, _⟩ => rfl
        | ⟨2, _⟩ => rfl
      have e2 : ridx_main_v6 (ix3 b s (rowOf o)) k = ix2 (rowOf o) k := funext fun a => by
        match a with
        | ⟨0, _⟩ => rfl
        | ⟨1, _⟩ => rfl
      rw [e1, e2]
  · refine congrArg x7 (funext fun a => ?_)
    match a with
    | ⟨0, _⟩ => rfl

end Cert.ReferenceIdeal.RefValue

end
-- ==== Proof.lean ====
/-
  The kernel computes, for activations `x` (2 × 8192 × 2048), three weight matrices with their masks and a bias,

      y[b, s, o] = (sum over k of x[b, s, k] · (w n · mask n)[o % 2048, k]) + bias[o],   n = o / 2048,

  by stacking the three masked matrices on the host and multiplying 128 rows of `x` at a time by the stack inside one
  launch over 128 grid points; the reference multiplies by each masked matrix separately and joins the three products
  along the last axis. On the extended reals — a change of float format the identity, the product into a zero accumulator the
  plain sum — both are the one sum above (Proof/Spec.lean): no term is regrouped, so no finiteness is used.

  The three frames: each program terminates without fault and leaves its eight arguments as they were (the launch stages
  only the bias among them and never writes it back; no host line writes an argument). The ideal pass rewrote nothing, so
  the kernel's idealization is its own text and there is nothing to preserve.
-/
import proofs.«107753_j30571577213783_2_alg».proof.Defs
import proofs.«107753_j30571577213783_2_alg».proof.Proof.Kernel.Run
import proofs.«107753_j30571577213783_2_alg».proof.Proof.KernelIdeal.Result
import proofs.«107753_j30571577213783_2_alg».proof.Proof.RefValue
import proofs.«107753_j30571577213783_2_alg».proof.Proof.Gen.ReferenceIdeal.Run
import proofs.«107753_j30571577213783_2_alg».proof.Proof.Gen.Pre_finite_inputs

noncomputable section

namespace Cert.Proof

open Idealize.ShloMosaic Idealize.SL.Sem

/-- The kernel as printed runs to the end and keeps its arguments. -/
theorem frame_kernel : Cert.frame_Kernel := fun m ρ _ => Cert.Kernel.Frame.frame m ρ

/-- So does its idealization. -/
theorem frame_kernel_ideal : Cert.frame_KernelIdeal := fun m ρ _ => Cert.KernelIdeal.Frame.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both idealized programs end with the specification's array. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      ![m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3)]
      ![m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6)]
      (m ((c.tc : Thread Cert.KernelIdeal.nD Cert.KernelIdeal.τ).loc Cert.KernelIdeal.main_arg7)),
    Cert.KernelIdeal.Result.run_value m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v12_eq, Cert.ReferenceIdeal.RefValue.reference_is_result]
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
